-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 52
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S1x128, .f32⟩
  | .hbm, ⟨51, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S_, .f32⟩
  | .hbm, ⟨57, _⟩ => ⟨S600000, .f32⟩
  | .hbm, ⟨58, _⟩ => ⟨S_, .f32⟩
  | .hbm, ⟨59, _⟩ => ⟨S50000, .f32⟩
  | .hbm, ⟨60, _⟩ => ⟨S600000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with every buffer's final contents named.

  The program is four segments: the host operations before the first layer's combine, that combine (a pipelined
  region of ten grid points), the host operations between the two layers, and the second combine. The generated frame
  module folds the buffer contents through the four segments (`Gen.W0` … `Gen.W4`) and proves each segment over them;
  here the same launch is run to the end keeping what it establishes of the final memory — every unscoped
  TensorCore buffer holds `Gen.W4`'s contents — so that the result array can be read off the fold.
-/
import proofs.«143566_j13615046328531_2_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each unscoped
    TensorCore buffer holds the last boundary's contents `Gen.W4`: the launch over the four segments, the last thread
    state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Valued

end
-- ==== Proof.LayerSpec.lean ====
/-
  One GraphSAGE layer with mean aggregation, before its activation, entry by entry on the extended reals.

  For a node `p` and an output feature `c` the layer's combine is

      ∑ₖ h(p,k)·W_self(k,c)  +  ∑ₖ (A(p,k)·r(p))·W_neigh(k,c)  +  b(c)

  where `h` holds the node features, `A` the sums of the neighbours' features, `r` the reciprocal of the clamped
  in-degree, kept as a column `[n, 1]`, and `b` the bias, kept as a row `[1, 128]`. The number of rows `n` is a
  parameter: the same expression describes a block of the node axis and the whole array.

  The clamped degree `max d 1` is never zero, so dividing by it is multiplying by its reciprocal on every extended
  real (the library's `Ideal.mul_one_div`), infinities included: that is the only law the two programs differ by.
-/
import Idealize.ShloMosaic.PureOps.Ideal
import Idealize.ShloMosaic.Lib.ValueIdx

noncomputable section

namespace Cert.Sage

open Idealize.ShloMosaic Idealize.ShloMosaic.ValueIdx

/-- The layer's combine at node `p`, output feature `c`. -/
def combine {n : ℕ} (h A : (⟨2, ![n, 128]⟩ : Shape).Idx → EReal) (r : (⟨2, ![n, 1]⟩ : Shape).Idx → EReal)
    (Ws Wn : (⟨2, ![128, 128]⟩ : Shape).Idx → EReal) (b : (⟨2, ![1, 128]⟩ : Shape).Idx → EReal)
    (p : Fin n) (c : Fin 128) : EReal :=
  ((∑ k : Fin 128, h (ix2 p k) * Ws (ix2 k c))
    + ∑ k : Fin 128, (A (ix2 p k) * r (ix2 p (0 : Fin 1))) * Wn (ix2 k c)) + b (ix2 (0 : Fin 1) c)

/-- A degree clamped below by one is not zero. -/
theorem max_one_ne_zero (d : EReal) : max d 1 ≠ 0 :=
  ne_of_gt (lt_of_lt_of_le zero_lt_one (le_max_right d 1))

end Cert.Sage

end
-- ==== Proof.KernelTerm.lean ====
/-
  The idealized kernel program as one function of its arguments.

  Both programs share the graph part of each layer: the neighbour sums `agg` (gather the rows of the features at the
  edges' sources, indices below zero wrapped once by the number of nodes; scatter-add them into the rows named by the
  edges' destinations, starting from zeros) and the clamped in-degree `degm` (scatter-add ones the same way, then the
  maximum with one). These are carried as opaque functions: nothing about a scatter is ever opened. What is specific
  to this program is how the mean is taken: it computes the reciprocal of the clamped degree once, as a column
  `rdeg`, and each layer multiplies the neighbour sums by it inside the combine (`Cert.Sage.combine`).
  `hidden` is the first layer with its clamp at zero; `output` is the second layer applied to `hidden`.
-/
import proofs.«143566_j13615046328531_2_alg».proof.KernelIdeal
import proofs.«143566_j13615046328531_2_alg».proof.Proof.Gen.KernelIdeal
import proofs.«143566_j13615046328531_2_alg».proof.Proof.LayerSpec
import Idealize.ShloMosaic.PureOps.Ideal

noncomputable section

namespace Cert.KernelIdeal.Term

open Cert.KernelIdeal Cert.KernelIdeal.Gen Idealize.ShloMosaic Idealize.ShloMosaic.TcCoe Idealize.SL.Sem

section Graph

variable {F : FTy → Type} [FloatOps F]

/-- The edges' source rows as start indices: a negative index wrapped once by the number of nodes, as a column. -/
def srcRows (src : (⟨S600000, .i32⟩ : BufTy).Contents (Elt F)) : (⟨S600000x1, .i32⟩ : BufTy).Contents (Elt F) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The neighbour sums: the features' rows at the edges' sources, added into the rows of the edges' destinations. -/
def agg (h : (⟨S50000x128, .f32⟩ : BufTy).Contents (Elt F)) (src dst : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h (srcRows src))

/-- The in-degree: ones added into the destinations' entries. -/
def deg (dst : (⟨S600000, .i32⟩ : BufTy).Contents (Elt F)) : (⟨S50000, .f32⟩ : BufTy).Contents (Elt F) :=
  Host.scatterAdd scatter_S50000_S600000x1_S600000_n_0_0_1
    (broadcastInDim S50000 ![] bcast_S_S50000 (constant S_ .f32 0x00000000#32))
    (broadcastInDim S600000x1 ![0] bcast_S600000_S600000x1_0 dst)
    (broadcastInDim S600000 ![] bcast_S_S600000 (constant S_ .f32 0x3F800000#32))

/-- The in-degree clamped below by one. -/
def degm (dst : (⟨S600000, .i32⟩ : BufTy).Contents (Elt F)) : (⟨S50000, .f32⟩ : BufTy).Contents (Elt F) :=
  maximumf (deg dst) (broadcastInDim S50000 ![] bcast_S_S50000 (constant S_ .f32 0x3F800000#32))

/-- The reciprocal of the clamped in-degree, as a column. -/
def rdeg (dst : (⟨S600000, .i32⟩ : BufTy).Contents (Elt F)) : (⟨S50000x1, .f32⟩ : BufTy).Contents (Elt F) :=
  shapeCast S50000x1
    (Host.divf (broadcastInDim S50000 ![] bcast_S_S50000 (constant S_ .f32 0x3F800000#32)) (degm dst))
    shapeCasts_S50000_S50000x1

/-- A bias vector as a row. -/
def biasRow (b : (⟨S128, .f32⟩ : BufTy).Contents (Elt F)) : (⟨S1x128, .f32⟩ : BufTy).Contents (Elt F) :=
  shapeCast S1x128 b shapeCasts_S128_S1x128

end Graph

/-- A layer's combine over the whole node axis, clamped below by zero. -/
def layer0 (H A : S50000x128.Idx → EReal) (R : S50000x1.Idx → EReal) (Ws Wn : S128x128.Idx → EReal)
    (B : S1x128.Idx → EReal) : S50000x128.Idx → EReal :=
  fun i => max (Cert.Sage.combine H A R Ws Wn B (i 0) (i 1)) (Ideal.ofBits .f32 0x00000000#32)

/-- A layer's combine over the whole node axis. -/
def layer1 (H A : S50000x128.Idx → EReal) (R : S50000x1.Idx → EReal) (Ws Wn : S128x128.Idx → EReal)
    (B : S1x128.Idx → EReal) : S50000x128.Idx → EReal :=
  fun i => Cert.Sage.combine H A R Ws Wn B (i 0) (i 1)

/-- The hidden features: the first layer of the node features, clamped below by zero. -/
def hidden (h : (⟨S50000x128, .f32⟩ : BufTy).Contents (Elt Ideal)) (src dst : (⟨S600000, .i32⟩ : BufTy).Contents (Elt Ideal))
    (ws wn : (⟨S128x128, .f32⟩ : BufTy).Contents (Elt Ideal)) (b : (⟨S128, .f32⟩ : BufTy).Contents (Elt Ideal)) :
    (⟨S50000x128, .f32⟩ : BufTy).Contents (Elt Ideal) :=
  layer0 h (agg h src dst) (rdeg dst) ws wn (biasRow b)

/-- The program's result: the second layer of the hidden features. -/
def output (h : (⟨S50000x128, .f32⟩ : BufTy).Contents (Elt Ideal)) (src dst : (⟨S600000, .i32⟩ : BufTy).Contents (Elt Ideal))
    (ws0 wn0 : (⟨S128x128, .f32⟩ : BufTy).Contents (Elt Ideal)) (b0 : (⟨S128, .f32⟩ : BufTy).Contents (Elt Ideal))
    (ws1 wn1 : (⟨S128x128, .f32⟩ : BufTy).Contents (Elt Ideal)) (b1 : (⟨S128, .f32⟩ : BufTy).Contents (Elt Ideal)) :
    (⟨S50000x128, .f32⟩ : BufTy).Contents (Elt Ideal) :=
  layer1 (hidden h src dst ws0 wn0 b0) (agg (hidden h src dst ws0 wn0 b0) src dst) (rdeg dst) ws1 wn1 (biasRow b1)

end Cert.KernelIdeal.Term

end
-- ==== Proof.KernelHost.lean ====
/-
  The arrays each combine region finds, as functions of the program's arguments.

  Before the first region the host operations compute the in-degree column, the neighbour sums of the node features
  and the bias row; between the regions they compute the neighbour sums of the hidden features (the first region's
  result) and the second bias row. Each such array is the corresponding term of `Cert.KernelIdeal.Term` — read off
  the host operations one result at a time — and every array no operation writes is as it was.
-/
import proofs.«143566_j13615046328531_2_alg».proof.Proof.Gen.KernelIdeal.Frame
import proofs.«143566_j13615046328531_2_alg».proof.Proof.KernelTerm
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch contents of a TensorCore buffer are the memory's. -/
theorem launch_read (c : Dev nD) (b : Ref sig .tc) : W0 m ρ c (Proc.devRef .tc b) = m ((c : Thread nD τ).loc b) := rfl

/-! ## At the first region's entry -/

theorem entry0_features (c : Dev nD) : V1 m ρ c main_arg0 = m ((c : Thread nD τ).loc main_arg0) := by
  show StableHlo.after hostOps0 (W0 m ρ c) (Proc.devRef .tc main_arg0) = _
  dsimp only [hostOps0]; after_results
theorem entry0_src (c : Dev nD) : W1 m ρ c (Proc.devRef .tc main_arg1) = m ((c : Thread nD τ).loc main_arg1) := by
  show StableHlo.after hostOps0 (W0 m ρ c) (Proc.devRef .tc main_arg1) = _
  dsimp only [hostOps0]; after_results
theorem entry0_dst (c : Dev nD) : W1 m ρ c (Proc.devRef .tc main_arg2) = m ((c : Thread nD τ).loc main_arg2) := by
  show StableHlo.after hostOps0 (W0 m ρ c) (Proc.devRef .tc main_arg2) = _
  dsimp only [hostOps0]; after_results
theorem entry0_wself (c : Dev nD) : V1 m ρ c main_arg3 = m ((c : Thread nD τ).loc main_arg3) := by
  show StableHlo.after hostOps0 (W0 m ρ c) (Proc.devRef .tc main_arg3) = _
  dsimp only [hostOps0]; after_results
theorem entry0_wneigh (c : Dev nD) : V1 m ρ c main_arg4 = m ((c : Thread nD τ).loc main_arg4) := by
  show StableHlo.after hostOps0 (W0 m ρ c) (Proc.devRef .tc main_arg4) = _
  dsimp only [hostOps0]; after_results
theorem entry0_wself1 (c : Dev nD) : W1 m ρ c (Proc.devRef .tc main_arg6) = m ((c : Thread nD τ).loc main_arg6) := by
  show StableHlo.after hostOps0 (W0 m ρ c) (Proc.devRef .tc main_arg6) = _
  dsimp only [hostOps0]; after_results
theorem entry0_wneigh1 (c : Dev nD) : W1 m ρ c (Proc.devRef .tc main_arg7) = m ((c : Thread nD τ).loc main_arg7) := by
  show StableHlo.after hostOps0 (W0 m ρ c) (Proc.devRef .tc main_arg7) = _
  dsimp only [hostOps0]; after_results
theorem entry0_bias1 (c : Dev nD) : W1 m ρ c (Proc.devRef .tc main_arg8) = m ((c : Thread nD τ).loc main_arg8) := by
  show StableHlo.after hostOps0 (W0 m ρ c) (Proc.devRef .tc main_arg8) = _
  dsimp only [hostOps0]; after_results

set_option maxHeartbeats 400000 in
/-- The neighbour sums of the node features. -/
theorem entry0_agg (c : Dev nD) : V1 m ρ c main_v18
    = Term.agg (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  dsimp only [hostOps0]; after_results
  rw [launch_read, launch_read, launch_read]
  unfold Term.agg Term.srcRows
  rfl

/-- The reciprocal clamped in-degree, as a column. -/
theorem entry0_rdeg (c : Dev nD) : V1 m ρ c main_v8 = Term.rdeg (F := Ideal) (m ((c : Thread nD τ).loc main_arg2)) := by
  show StableHlo.after hostOps0 (W0 m ρ c) (Proc.devRef .tc main_v8) = _
  dsimp only [hostOps0]; after_results
  rw [launch_read]
  unfold Term.rdeg Term.degm Term.deg
  rfl

/-- The first bias, as a row. -/
theorem entry0_bias (c : Dev nD) : V1 m ρ c main_v19 = Term.biasRow (F := Ideal) (m ((c : Thread nD τ).loc main_arg5)) := by
  show StableHlo.after hostOps0 (W0 m ρ c) (Proc.devRef .tc main_v19) = _
  dsimp only [hostOps0]; after_results
  rw [launch_read]
  unfold Term.biasRow
  rfl

/-! ## At the first region's exit -/

/-- The hidden-feature array is what the first region's write-backs leave. -/
theorem exit0_hidden (c : Dev nD) : W2 m ρ c (Proc.devRef .tc main_v20) = (dat0 (V1 m ρ) c).arrAt 6 cfg0.N :=
  W2_arr m ρ c 6
theorem exit0_rdeg (c : Dev nD) : W2 m ρ c (Proc.devRef .tc main_v8) = V1 m ρ c main_v8 :=
  (W2_arr m ρ c 2).trans (((dat0 (V1 m ρ) c).arrAt_in 2 rfl _).trans (A_eq0 (V1 m ρ) c 2))
theorem exit0_src (c : Dev nD) : W2 m ρ c (Proc.devRef .tc main_arg1) = m ((c : Thread nD τ).loc main_arg1) :=
  (W2_of_ne m ρ c main_arg1 (by decide)).trans (entry0_src m ρ c)
theorem exit0_dst (c : Dev nD) : W2 m ρ c (Proc.devRef .tc main_arg2) = m ((c : Thread nD τ).loc main_arg2) :=
  (W2_of_ne m ρ c main_arg2 (by decide)).trans (entry0_dst m ρ c)
theorem exit0_wself1 (c : Dev nD) : W2 m ρ c (Proc.devRef .tc main_arg6) = m ((c : Thread nD τ).loc main_arg6) :=
  (W2_of_ne m ρ c main_arg6 (by decide)).trans (entry0_wself1 m ρ c)
theorem exit0_wneigh1 (c : Dev nD) : W2 m ρ c (Proc.devRef .tc main_arg7) = m ((c : Thread nD τ).loc main_arg7) :=
  (W2_of_ne m ρ c main_arg7 (by decide)).trans (entry0_wneigh1 m ρ c)
theorem exit0_bias1 (c : Dev nD) : W2 m ρ c (Proc.devRef .tc main_arg8) = m ((c : Thread nD τ).loc main_arg8) :=
  (W2_of_ne m ρ c main_arg8 (by decide)).trans (entry0_bias1 m ρ c)

/-! ## At the second region's entry -/

theorem entry1_hidden (c : Dev nD) : V3 m ρ c main_v20 = W2 m ρ c (Proc.devRef .tc main_v20) := by
  show StableHlo.after hostOps1 (W2 m ρ c) (Proc.devRef .tc main_v20) = _
  dsimp only [hostOps1]; after_results
theorem entry1_rdeg (c : Dev nD) : V3 m ρ c main_v8 = W2 m ρ c (Proc.devRef .tc main_v8) := by
  show StableHlo.after hostOps1 (W2 m ρ c) (Proc.devRef .tc main_v8) = _
  dsimp only [hostOps1]; after_results
theorem entry1_wself (c : Dev nD) : V3 m ρ c main_arg6 = W2 m ρ c (Proc.devRef .tc main_arg6) := by
  show StableHlo.after hostOps1 (W2 m ρ c) (Proc.devRef .tc main_arg6) = _
  dsimp only [hostOps1]; after_results
theorem entry1_wneigh (c : Dev nD) : V3 m ρ c main_arg7 = W2 m ρ c (Proc.devRef .tc main_arg7) := by
  show StableHlo.after hostOps1 (W2 m ρ c) (Proc.devRef .tc main_arg7) = _
  dsimp only [hostOps1]; after_results

/-- The neighbour sums of the hidden features. -/
theorem entry1_agg (c : Dev nD) : V3 m ρ c main_v30
    = Term.agg (F := Ideal) (W2 m ρ c (Proc.devRef .tc main_v20)) (W2 m ρ c (Proc.devRef .tc main_arg1)) (W2 m ρ c (Proc.devRef .tc main_arg2)) := by
  show StableHlo.after hostOps1 (W2 m ρ c) (Proc.devRef .tc main_v30) = _
  dsimp only [hostOps1]; after_results
  unfold Term.agg Term.srcRows
  rfl

/-- The second bias, as a row. -/
theorem entry1_bias (c : Dev nD) : V3 m ρ c main_v31 = Term.biasRow (F := Ideal) (W2 m ρ c (Proc.devRef .tc main_arg8)) := by
  show StableHlo.after hostOps1 (W2 m ρ c) (Proc.devRef .tc main_v31) = _
  dsimp only [hostOps1]; after_results
  unfold Term.biasRow
  rfl

end Cert.KernelIdeal.HostValues

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.Payload.lean ====
/-
  What one grid point of each combine kernel stores, read at a row `p` and a column `c` of its block.

  The body multiplies the block of neighbour sums by the block's column of reciprocal degrees (the column spread over
  the 128 features), forms the two matrix products with the weight matrices into zero accumulators, adds them, and
  adds the bias row spread over the rows; the first layer's body then takes the maximum with zero. A change of float
  format is the identity on the extended reals, so the entry stored at `(p, c)` is the layer's combine of the
  block's rows (`Cert.Sage.combine`), under the maximum with zero for the first layer.
-/
import proofs.«143566_j13615046328531_2_alg».proof.Proof.Gen.KernelIdeal.Skeleton
import proofs.«143566_j13615046328531_2_alg».proof.Proof.LayerSpec
import proofs.«143566_j13615046328531_2_alg».proof.Proof.LibRowColDot
import proofs.«143566_j13615046328531_2_alg».proof.Proof.LibColumnBroadcast
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The kept coordinate of the left operand's index is the output's row. -/
theorem dot_lhs0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The kept coordinate of the right operand's index is the output's column. -/
theorem dot_rhs1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block's product with a weight matrix into the zero accumulator, at `(p, c)`. -/
theorem matmul_apply {φ₁ φ₂ : FTy} (l : FVec Ideal S5000x128 φ₁) (r : FVec Ideal S128x128 φ₂) (p : Fin 5000) (c : Fin 128) :
    matmul dot_S5000x128_S128x128_S5000x128_1_0_0_1_n_n none l r (constant S5000x128 .f32 0x00000000#32) (ix2 p c)
      = ∑ k : Fin 128, l (ix2 p k) * r (ix2 k c) :=
  Cert.RowColDot.matmul_rowcol dot_S5000x128_S128x128_S5000x128_1_0_0_1_n_n rfl rfl rfl rfl dot_lhs0 dot_rhs1 none l r (ix2 p c)

/-- The first layer's stored entry: the combine of the block's rows, clamped below by zero. -/
theorem pay0_apply (agg : Vec Ideal S5000x128 .f32) (rdeg : Vec Ideal S5000x1 .f32) (h : Vec Ideal S5000x128 .f32)
    (ws wn : Vec Ideal S128x128 .f32) (b : Vec Ideal S1x128 .f32) (p : Fin 5000) (c : Fin 128) :
    k0_pay1 (F := Ideal) agg rdeg h ws wn b (ix2 p c)
      = max (Cert.Sage.combine h agg rdeg ws wn b p c) (Ideal.ofBits .f32 0x00000000#32) := by
  unfold k0_pay1 Cert.Sage.combine
  rw [maximumf_apply, addf_apply, addf_apply, matmul_apply, matmul_apply, broadcastTo_1b_ab_apply, shapeCast_self]
  simp only [truncf_apply, mulf_apply, shapeCast_self, Cert.WeightUpdate.Layout.broadcastTo_a1_ab_apply]
  rfl

/-- The second layer's stored entry: the combine of the block's rows. -/
theorem pay1_apply (agg : Vec Ideal S5000x128 .f32) (rdeg : Vec Ideal S5000x1 .f32) (h : Vec Ideal S5000x128 .f32)
    (ws wn : Vec Ideal S128x128 .f32) (b : Vec Ideal S1x128 .f32) (p : Fin 5000) (c : Fin 128) :
    k1_pay1 (F := Ideal) agg rdeg h ws wn b (ix2 p c) = Cert.Sage.combine h agg rdeg ws wn b p c := by
  unfold k1_pay1 Cert.Sage.combine
  rw [addf_apply, addf_apply, matmul_apply, matmul_apply, broadcastTo_1b_ab_apply, shapeCast_self]
  simp only [truncf_apply, mulf_apply, shapeCast_self, Cert.WeightUpdate.Layout.broadcastTo_a1_ab_apply]

end Cert.KernelIdeal.Payload

end
-- ==== Proof.Region0.lean ====
/-
  The first combine region as a whole-array function: after its ten grid points the hidden-feature array holds
  `Term.layer0` of the arrays the region found.

  Grid point `t` works on rows `5000·t … 5000·t + 4999` of the node axis: its blocks of the features, the neighbour
  sums and the reciprocal-degree column are those rows, the two weight matrices and the bias row are fetched whole,
  and the block it writes back is those rows of the result. So the entry it stores at `(p, c)` is the layer's
  combine at node `5000·t + p`, and the ten blocks tile the array.
-/
import proofs.«143566_j13615046328531_2_alg».proof.Proof.Gen.KernelIdeal.Frame
import proofs.«143566_j13615046328531_2_alg».proof.Proof.Payload
import proofs.«143566_j13615046328531_2_alg».proof.Proof.KernelTerm
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the row-blocked windows sit at block row `t`, the whole-array windows at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 10 :=
  (by decide +kernel : ∀ t : Fin grid0.N, _)

/-- The node a block row is: row `p` of grid point `t`'s blocks is node `5000·t + p`. -/
def node (t : Fin cfg0.N) (p : Fin 5000) : Fin 50000 :=
  ⟨t.val * 5000 + p.val, by have h := (idx_facts t).2.2.2.2.2.2.2.2.2.2.2.2.2.2; have := p.isLt; omega⟩

/-! ## Each window's block, read at coordinates -/

theorem read_h (c : Dev nD) (t : Fin cfg0.N) (p : Fin 5000) (k : Fin 128) :
    iblk0 V c 0 t (ix2 p k) = V c main_arg0 (ix2 (node t p) k) := by
  show V c main_arg0 (((cfg0.win 0).blk t).view.emb (ix2 p k)) = V c main_arg0 (ix2 (node t p) k)
  refine congrArg (V c main_arg0) (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem read_agg (c : Dev nD) (t : Fin cfg0.N) (p : Fin 5000) (k : Fin 128) :
    iblk0 V c 1 t (ix2 p k) = V c main_v18 (ix2 (node t p) k) := by
  show V c main_v18 (((cfg0.win 1).blk t).view.emb (ix2 p k)) = V c main_v18 (ix2 (node t p) k)
  refine congrArg (V c main_v18) (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 128 + 1 * k.val = k.val; omega

theorem read_rdeg (c : Dev nD) (t : Fin cfg0.N) (p : Fin 5000) :
    iblk0 V c 2 t (ix2 p (0 : Fin 1)) = V c main_v8 (ix2 (node t p) (0 : Fin 1)) := by
  show V c main_v8 (((cfg0.win 2).blk t).view.emb (ix2 p (0 : Fin 1))) = V c main_v8 (ix2 (node t p) (0 : Fin 1))
  refine congrArg (V c main_v8) (funext fun a => Fin.ext ?_)
  obtain ⟨-, -, -, -, e0, e1, -⟩ := idx_facts t
  match a with
  | ⟨0, _⟩ => show win0_2.index t (0 : Fin 2) * 5000 + 1 * p.val = t.val * 5000 + p.val; omega
  | ⟨1, _⟩ => show win0_2.index t (1 : Fin 2) * 1 + 1 * 0 = 0; omega

theorem read_ws (c : Dev nD) (t : Fin cfg0.N) (k q : Fin 128) :
    iblk0 V c 3 t (ix2 k q) = V c main_arg3 (ix2 k q) := by
  show V c main_arg3 (((cfg0.win 3).blk t).view.emb (ix2 k q)) = V c main_arg3 (ix2 k q)
  refine congrArg (V c main_arg3) (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

theorem read_wn (c : Dev nD) (t : Fin cfg0.N) (k q : Fin 128) :
    iblk0 V c 4 t (ix2 k q) = V c main_arg4 (ix2 k q) := by
  show V c main_arg4 (((cfg0.win 4).blk t).view.emb (ix2 k q)) = V c main_arg4 (ix2 k q)
  refine congrArg (V c main_arg4) (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 128 + 1 * q.val = q.val; omega

theorem read_b (c : Dev nD) (t : Fin cfg0.N) (q : Fin 128) :
    iblk0 V c 5 t (ix2 (0 : Fin 1) q) = V c main_v19 (ix2 (0 : Fin 1) q) := by
  show V c main_v19 (((cfg0.win 5).blk t).view.emb (ix2 (0 : Fin 1) q)) = V c main_v19 (ix2 (0 : Fin 1) q)
  refine congrArg (V c main_v19) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 128 + 1 * q.val = q.val; omega

/-- Where the written block's entry `(p, q)` sits in the result array. -/
theorem out_emb (t : Fin cfg0.N) (p : Fin 5000) (q : Fin 128) :
    ((cfg0.win 6).blk t).view.emb (ix2 p q) = ix2 (node t p) q := by
  refine funext fun a => Fin.ext ?_
  obtain ⟨-, -, -, -, -, -, -, -, -, -, -, -, e0, e1, -⟩ := idx_facts t
  match a with
  | ⟨0, _⟩ => show win0_6.index t (0 : Fin 2) * 5000 + 1 * p.val = t.val * 5000 + p.val; omega
  | ⟨1, _⟩ => show win0_6.index t (1 : Fin 2) * 128 + 1 * q.val = q.val; omega

/-! ## The region's result -/

/-- The array the region leaves: the first layer of the arrays it found. -/
def result (c : Dev nD) : S50000x128.Idx → EReal :=
  Term.layer0 (V c main_arg0) (V c main_v18) (V c main_v8) (V c main_arg3) (V c main_arg4) (V c main_v19)

/-- The stored entry `(p, q)` of grid point `t` is the result at node `5000·t + p`, feature `q`. -/
theorem point_eq (c : Dev nD) (t : Fin cfg0.N) (j : S5000x128.Idx) :
    k0_pay1 (F := Ideal) (iblk0 V c 1 t) (iblk0 V c 2 t) (iblk0 V c 0 t) (iblk0 V c 3 t) (iblk0 V c 4 t) (iblk0 V c 5 t) j
      = result V c (((cfg0.win 6).blk t).view.emb j) := by
  obtain ⟨p, q, rfl⟩ : ∃ (p : Fin 5000) (q : Fin 128), j = ix2 p q := ⟨j 0, j 1, eq_ix2 j⟩
  rw [out_emb t p q]
  refine (Payload.pay0_apply (iblk0 V c 1 t) (iblk0 V c 2 t) (iblk0 V c 0 t) (iblk0 V c 3 t) (iblk0 V c 4 t) (iblk0 V c 5 t) p q).trans ?_
  show max (Cert.Sage.combine (iblk0 V c 0 t) (iblk0 V c 1 t) (iblk0 V c 2 t) (iblk0 V c 3 t) (iblk0 V c 4 t) (iblk0 V c 5 t) p q) _
    = max (Cert.Sage.combine (V c main_arg0) (V c main_v18) (V c main_v8) (V c main_arg3) (V c main_arg4) (V c main_v19) (node t p) q) _
  unfold Cert.Sage.combine
  simp only [read_h V c t, read_agg V c t, read_rdeg V c t, read_ws V c t, read_wn V c t, read_b V c t]

/-- What grid point `t` writes back is block `t` of the result. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero offsets_zero]
  simp only [View.ld_unit_zero (S := S5000x128) offsets_zero, View.ld_unit_zero (S := S5000x1) offsets_zero,
    View.ld_unit_zero (S := S128x128) offsets_zero, View.ld_unit_zero (S := S1x128) offsets_zero]
  funext j
  exact point_eq V c t j

/-- An index of the result array is in grid point `t`'s block iff each coordinate is in the block's range. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every block row is some grid point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- The ten blocks tile the result array. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After the region the hidden-feature array holds the first layer of the arrays the region found. -/
theorem final (c : Dev nD) : (dat0 V c).arrAt 6 cfg0.N = result V c :=
  (dat0 V c).arrAt_eq_of_cover 6 (result V c) (fun t _ => flushed_eq V c t) (cover)

end Cert.KernelIdeal.Region0

end
-- ==== Proof.Region1.lean ====
/-
  The second combine region as a whole-array function: after its ten grid points the program's result array holds
  `Term.layer1` of the arrays the region found.

  As in the first region, grid point `t` works on rows `5000·t … 5000·t + 4999` of the node axis — its blocks of
  the hidden features, their neighbour sums and the reciprocal-degree column are those rows, the second layer's
  weight matrices and bias row are fetched whole — and writes those rows of the result back. This body has no clamp:
  the entry it stores at `(p, c)` is the layer's combine at node `5000·t + p`.
-/
import proofs.«143566_j13615046328531_2_alg».proof.Proof.Gen.KernelIdeal.Frame
import proofs.«143566_j13615046328531_2_alg».proof.Proof.Payload
import proofs.«143566_j13615046328531_2_alg».proof.Proof.KernelTerm
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the row-blocked windows sit at block row `t`, the whole-array windows at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 10 :=
  (by decide +kernel : ∀ t : Fin grid1.N, _)

/-- The node a block row is: row `p` of grid point `t`'s blocks is node `5000·t + p`. -/
def node (t : Fin cfg1.N) (p : Fin 5000) : Fin 50000 :=
  ⟨t.val * 5000 + p.val, by have h := (idx_facts t).2.2.2.2.2.2.2.2.2.2.2.2.2.2; have := p.isLt; omega⟩

/-! ## Each window's block, read at coordinates -/

theorem read_h (c : Dev nD) (t : Fin cfg1.N) (p : Fin 5000) (k : Fin 128) :
    iblk1 V c 0 t (ix2 p k) = V c main_v20 (ix2 (node t p) k) := by
  show V c main_v20 (((cfg1.win 0).blk t).view.emb (ix2 p k)) = V c main_v20 (ix2 (node t p) k)
  refine congrArg (V c main_v20) (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem read_agg (c : Dev nD) (t : Fin cfg1.N) (p : Fin 5000) (k : Fin 128) :
    iblk1 V c 1 t (ix2 p k) = V c main_v30 (ix2 (node t p) k) := by
  show V c main_v30 (((cfg1.win 1).blk t).view.emb (ix2 p k)) = V c main_v30 (ix2 (node t p) k)
  refine congrArg (V c main_v30) (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 128 + 1 * k.val = k.val; omega

theorem read_rdeg (c : Dev nD) (t : Fin cfg1.N) (p : Fin 5000) :
    iblk1 V c 2 t (ix2 p (0 : Fin 1)) = V c main_v8 (ix2 (node t p) (0 : Fin 1)) := by
  show V c main_v8 (((cfg1.win 2).blk t).view.emb (ix2 p (0 : Fin 1))) = V c main_v8 (ix2 (node t p) (0 : Fin 1))
  refine congrArg (V c main_v8) (funext fun a => Fin.ext ?_)
  obtain ⟨-, -, -, -, e0, e1, -⟩ := idx_facts t
  match a with
  | ⟨0, _⟩ => show win1_2.index t (0 : Fin 2) * 5000 + 1 * p.val = t.val * 5000 + p.val; omega
  | ⟨1, _⟩ => show win1_2.index t (1 : Fin 2) * 1 + 1 * 0 = 0; omega

theorem read_ws (c : Dev nD) (t : Fin cfg1.N) (k q : Fin 128) :
    iblk1 V c 3 t (ix2 k q) = V c main_arg6 (ix2 k q) := by
  show V c main_arg6 (((cfg1.win 3).blk t).view.emb (ix2 k q)) = V c main_arg6 (ix2 k q)
  refine congrArg (V c main_arg6) (funext fun a => Fin.ext ?_)
  obtain ⟨-, -, -, -, -, -, e0, e1, -⟩ := idx_facts t
  match a with
  | ⟨0, _⟩ => show win1_3.index t (0 : Fin 2) * 128 + 1 * k.val = k.val; omega
  | ⟨1, _⟩ => show win1_3.index t (1 : Fin 2) * 128 + 1 * q.val = q.val; omega

theorem read_wn (c : Dev nD) (t : Fin cfg1.N) (k q : Fin 128) :
    iblk1 V c 4 t (ix2 k q) = V c main_arg7 (ix2 k q) := by
  show V c main_arg7 (((cfg1.win 4).blk t).view.emb (ix2 k q)) = V c main_arg7 (ix2 k q)
  refine congrArg (V c main_arg7) (funext fun a => Fin.ext ?_)
  obtain ⟨-, -, -, -, -, -, -, -, e0, e1, -⟩ := idx_facts t
  match a with
  | ⟨0, _⟩ => show win1_4.index t (0 : Fin 2) * 128 + 1 * k.val = k.val; omega
  | ⟨1, _⟩ => show win1_4.index t (1 : Fin 2) * 128 + 1 * q.val = q.val; omega

theorem read_b (c : Dev nD) (t : Fin cfg1.N) (q : Fin 128) :
    iblk1 V c 5 t (ix2 (0 : Fin 1) q) = V c main_v31 (ix2 (0 : Fin 1) q) := by
  show V c main_v31 (((cfg1.win 5).blk t).view.emb (ix2 (0 : Fin 1) q)) = V c main_v31 (ix2 (0 : Fin 1) q)
  refine congrArg (V c main_v31) (funext fun a => Fin.ext ?_)
  obtain ⟨-, -, -, -, -, -, -, -, -, -, e0, e1, -⟩ := idx_facts t
  match a with
  | ⟨0, _⟩ => show win1_5.index t (0 : Fin 2) * 1 + 1 * 0 = 0; omega
  | ⟨1, _⟩ => show win1_5.index t (1 : Fin 2) * 128 + 1 * q.val = q.val; omega

/-- Where the written block's entry `(p, q)` sits in the result array. -/
theorem out_emb (t : Fin cfg1.N) (p : Fin 5000) (q : Fin 128) :
    ((cfg1.win 6).blk t).view.emb (ix2 p q) = ix2 (node t p) q := by
  refine funext fun a => Fin.ext ?_
  obtain ⟨-, -, -, -, -, -, -, -, -, -, -, -, e0, e1, -⟩ := idx_facts t
  match a with
  | ⟨0, _⟩ => show win1_6.index t (0 : Fin 2) * 5000 + 1 * p.val = t.val * 5000 + p.val; omega
  | ⟨1, _⟩ => show win1_6.index t (1 : Fin 2) * 128 + 1 * q.val = q.val; omega

/-! ## The region's result -/

/-- The array the region leaves: the second layer of the arrays it found. -/
def result (c : Dev nD) : S50000x128.Idx → EReal :=
  Term.layer1 (V c main_v20) (V c main_v30) (V c main_v8) (V c main_arg6) (V c main_arg7) (V c main_v31)

/-- The stored entry `(p, q)` of grid point `t` is the result at node `5000·t + p`, feature `q`. -/
theorem point_eq (c : Dev nD) (t : Fin cfg1.N) (j : S5000x128.Idx) :
    k1_pay1 (F := Ideal) (iblk1 V c 1 t) (iblk1 V c 2 t) (iblk1 V c 0 t) (iblk1 V c 3 t) (iblk1 V c 4 t) (iblk1 V c 5 t) j
      = result V c (((cfg1.win 6).blk t).view.emb j) := by
  obtain ⟨p, q, rfl⟩ : ∃ (p : Fin 5000) (q : Fin 128), j = ix2 p q := ⟨j 0, j 1, eq_ix2 j⟩
  rw [out_emb t p q]
  refine (Payload.pay1_apply (iblk1 V c 1 t) (iblk1 V c 2 t) (iblk1 V c 0 t) (iblk1 V c 3 t) (iblk1 V c 4 t) (iblk1 V c 5 t) p q).trans ?_
  show Cert.Sage.combine (iblk1 V c 0 t) (iblk1 V c 1 t) (iblk1 V c 2 t) (iblk1 V c 3 t) (iblk1 V c 4 t) (iblk1 V c 5 t) p q
    = Cert.Sage.combine (V c main_v20) (V c main_v30) (V c main_v8) (V c main_arg6) (V c main_arg7) (V c main_v31) (node t p) q
  unfold Cert.Sage.combine
  simp only [read_h V c t, read_agg V c t, read_rdeg V c t, read_ws V c t, read_wn V c t, read_b V c t]

/-- What grid point `t` writes back is block `t` of the result. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero offsets_zero]
  simp only [View.ld_unit_zero (S := S5000x128) offsets_zero, View.ld_unit_zero (S := S5000x1) offsets_zero,
    View.ld_unit_zero (S := S128x128) offsets_zero, View.ld_unit_zero (S := S1x128) offsets_zero]
  funext j
  exact point_eq V c t j

/-- An index of the result array is in grid point `t`'s block iff each coordinate is in the block's range. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- Every block row is some grid point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- The ten blocks tile the result array. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the region the program's result array holds the second layer of the arrays the region found. -/
theorem final (c : Dev nD) : (dat1 V c).arrAt 6 cfg1.N = result V c :=
  (dat1 V c).arrAt_eq_of_cover 6 (result V c) (fun t _ => flushed_eq V c t) (cover)

end Cert.KernelIdeal.Region1

end
-- ==== Proof.KernelValue.lean ====
/-
  The idealized kernel program's run with its result named: every weakly fair execution ends with the result array
  at `Term.output` of the arguments, and the arguments unchanged.

  The result array is what the second region's write-backs leave: the second layer (`Region1.final`) of the arrays
  that region found — the hidden features, their neighbour sums, the reciprocal-degree column, the second layer's
  weights and bias row. The hidden features are in turn what the first region's write-backs leave: the first layer
  (`Region0.final`) of the node features, their neighbour sums, the same column, the first layer's weights and
  bias row. Each of those arrays is read off the host operations (`HostValues`).
-/
import proofs.«143566_j13615046328531_2_alg».proof.Proof.KernelRun
import proofs.«143566_j13615046328531_2_alg».proof.Proof.KernelHost
import proofs.«143566_j13615046328531_2_alg».proof.Proof.Region0
import proofs.«143566_j13615046328531_2_alg».proof.Proof.Region1

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first region the hidden-feature array holds the hidden features of the arguments. -/
theorem hidden_value (c : Dev nD) : W2 m ρ c (Proc.devRef .tc main_v20)
    = Term.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [HostValues.exit0_hidden, Region0.final]
  unfold Region0.result Term.hidden
  rw [HostValues.entry0_features, HostValues.entry0_agg, HostValues.entry0_rdeg, HostValues.entry0_wself,
    HostValues.entry0_wneigh, HostValues.entry0_bias]

/-- After the second region the result array holds the program's function of the arguments. -/
theorem result_value (c : Dev nD) : W4 m ρ c (Proc.devRef .tc main_v32)
    = Term.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W4 m ρ c (Proc.devRef .tc main_v32) = (dat1 (V3 m ρ) c).arrAt 6 cfg1.N from W4_arr m ρ c 6, Region1.final]
  unfold Region1.result Term.output
  rw [HostValues.entry1_hidden, HostValues.entry1_agg, HostValues.entry1_rdeg, HostValues.entry1_wself,
    HostValues.entry1_wneigh, HostValues.entry1_bias]
  rw [hidden_value, HostValues.exit0_src, HostValues.exit0_dst, HostValues.exit0_rdeg, HostValues.entry0_rdeg,
    HostValues.exit0_wself1, HostValues.exit0_wneigh1, HostValues.exit0_bias1]

/-- The run: the result array at the program's function of the arguments, the arguments as launched. -/
theorem run : θ_run defs (onTc (τ := τ) (main (F := Ideal))) ⟨m, fun _ => 0, ρ⟩ (fun r => ∀ c : Dev nD,
      r.2.mem ((c.tc : Thread nD τ).loc main_v32) = Term.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v32 (by decide))).trans (result_value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩)
    (Valued.run_all m ρ)

end Cert.KernelIdeal.Whole

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.RefBridge.lean ====
/-
  The reference's result, stage by stage, is the kernel program's function of the same arguments.

  Both programs compute, per layer, the same neighbour sums and the same clamped in-degree with the same host
  operations, so those are carried as the opaque terms `Term.agg` and `Term.deg`. The reference divides the
  neighbour sums by the clamped degree, broadcast over the features; the kernel program multiplies them by the
  reciprocal of the clamped degree. The clamped degree `max d 1` is never zero, and dividing by a divisor that is
  not zero is multiplying by its reciprocal on every extended real — no finiteness is needed. The matrix products
  are the same sums over the 128 input features, the bias is added the same way, and the first layer's clamp at
  zero is the same maximum.
-/
import proofs.«143566_j13615046328531_2_alg».proof.Proof.Gen.ReferenceIdeal.Read
import proofs.«143566_j13615046328531_2_alg».proof.Proof.KernelTerm
import proofs.«143566_j13615046328531_2_alg».proof.Proof.LibKeepdims
import Idealize.ShloMosaic.Lib.IdealHost
import Idealize.ShloMosaic.Lib.ValueLayout

noncomputable section

namespace Cert.Bridge

open Cert.ReferenceIdeal Cert.ReferenceIdeal.Gen Cert.ReferenceIdeal.Read
open Idealize.ShloMosaic Idealize.ShloMosaic.ValueIdx
open Cert.KernelIdeal (Term.agg Term.deg Term.degm Term.rdeg Term.biasRow Term.srcRows Term.hidden Term.output Term.layer0 Term.layer1)

/-! ## The shared graph terms -/

/-- The reference's first-layer neighbour sums are the shared term. -/
theorem agg_eq (x0 : (⟨S50000x128, .f32⟩ : BufTy).Contents (Elt Ideal)) (x1 x2 : (⟨S600000, .i32⟩ : BufTy).Contents (Elt Ideal)) :
    val_main_v9 (F := Ideal) x0 x1 x2 = Term.agg (F := Ideal) x0 x1 x2 := by
  unfold val_main_v9 val_main_v7 val_main_cst val_main_v8 val_main_v6 val_main_v5 val_main_v4 val_main_v1 val_main_v0 val_main_c
    val_main_v3 val_main_v2 val_main_c_0 Term.agg Term.srcRows
  rfl

/-- The reference's second-layer neighbour sums are the shared term of its hidden features. -/
theorem agg1_eq (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) :
    val_main_v35 (F := Ideal) x0 x1 x2 x3 x4 x5 = Term.agg (F := Ideal) (val_main_v25 (F := Ideal) x0 x1 x2 x3 x4 x5) x1 x2 := by
  unfold val_main_v35 val_main_v33 val_main_cst_6 val_main_v34 val_main_v32 val_main_v31 val_main_v30 val_main_v27 val_main_v26 val_main_c_4
    val_main_v29 val_main_v28 val_main_c_5 Term.agg Term.srcRows
  rfl

/-- The reference's in-degree (both layers compute it) is the shared term. -/
theorem deg_eq (x2 : (⟨S600000, .i32⟩ : BufTy).Contents (Elt Ideal)) : val_main_v13 (F := Ideal) x2 = Term.deg (F := Ideal) x2 := by
  unfold val_main_v13 val_main_v11 val_main_cst_2 val_main_v12 val_main_v10 val_main_cst_1 Term.deg
  rfl
theorem deg1_eq (x2 : (⟨S600000, .i32⟩ : BufTy).Contents (Elt Ideal)) : val_main_v39 (F := Ideal) x2 = Term.deg (F := Ideal) x2 := by
  unfold val_main_v39 val_main_v37 val_main_cst_8 val_main_v38 val_main_v36 val_main_cst_7 Term.deg
  rfl

/-! ## The kernel program's column and row, read at coordinates -/

/-- The reciprocal-degree column at node `p`: one over the clamped degree. -/
theorem rdeg_apply (x2 : (⟨S600000, .i32⟩ : BufTy).Contents (Elt Ideal)) (p : Fin 50000) :
    Term.rdeg (F := Ideal) x2 (ix2 p (0 : Fin 1))
      = Ideal.div (Ideal.ofBits .f32 0x3F800000#32) (max (Term.deg (F := Ideal) x2 (ix1 p)) (Ideal.ofBits .f32 0x3F800000#32)) := by
  unfold Term.rdeg
  rw [Cert.MemAttn.Layout.shapeCast_a_a1_apply, hostDivf_apply, broadcastInDim_scalar_apply]
  unfold Term.degm
  rw [maximumf_apply, broadcastInDim_scalar_apply]
  rfl

/-- The bias row at feature `q`. -/
theorem biasRow_apply (b : (⟨S128, .f32⟩ : BufTy).Contents (Elt Ideal)) (q : Fin 128) :
    Term.biasRow (F := Ideal) b (ix2 (0 : Fin 1) q) = b (ix1 q) := by
  unfold Term.biasRow
  exact shapeCast_a_1a_apply _ _ 0 q

/-- Dividing by the clamped degree is multiplying by its reciprocal. -/
theorem mean_eq (a d : EReal) :
    Ideal.div a (max d (Ideal.ofBits .f32 0x3F800000#32))
      = a * Ideal.div (Ideal.ofBits .f32 0x3F800000#32) (max d (Ideal.ofBits .f32 0x3F800000#32)) := by
  rw [Ideal.ofBits_one_f32]
  exact (Ideal.mul_one_div (Cert.Sage.max_one_ne_zero d)).symm

/-! ## The reference's index maps at coordinates -/

theorem lidx19 (p : Fin 50000) (q k : Fin 128) : lidx_main_v19 (ix2 p q) k = ix2 p k :=
  funext fun a => by match a with | ⟨0, _⟩ => rfl | ⟨1, _⟩ => rfl
theorem ridx19 (p : Fin 50000) (q k : Fin 128) : ridx_main_v19 (ix2 p q) k = ix2 k q :=
  funext fun a => by match a with | ⟨0, _⟩ => rfl | ⟨1, _⟩ => rfl
theorem lidx20 (p : Fin 50000) (q k : Fin 128) : lidx_main_v20 (ix2 p q) k = ix2 p k :=
  funext fun a => by match a with | ⟨0, _⟩ => rfl | ⟨1, _⟩ => rfl
theorem ridx20 (p : Fin 50000) (q k : Fin 128) : ridx_main_v20 (ix2 p q) k = ix2 k q :=
  funext fun a => by match a with | ⟨0, _⟩ => rfl | ⟨1, _⟩ => rfl
theorem lidx45 (p : Fin 50000) (q k : Fin 128) : lidx_main_v45 (ix2 p q) k = ix2 p k :=
  funext fun a => by match a with | ⟨0, _⟩ => rfl | ⟨1, _⟩ => rfl
theorem ridx45 (p : Fin 50000) (q k : Fin 128) : ridx_main_v45 (ix2 p q) k = ix2 k q :=
  funext fun a => by match a with | ⟨0, _⟩ => rfl | ⟨1, _⟩ => rfl
theorem lidx46 (p : Fin 50000) (q k : Fin 128) : lidx_main_v46 (ix2 p q) k = ix2 p k :=
  funext fun a => by match a with | ⟨0, _⟩ => rfl | ⟨1, _⟩ => rfl
theorem ridx46 (p : Fin 50000) (q k : Fin 128) : ridx_main_v46 (ix2 p q) k = ix2 k q :=
  funext fun a => by match a with | ⟨0, _⟩ => rfl | ⟨1, _⟩ => rfl
theorem idx_deg (p : Fin 50000) (k : Fin 128) : idx_main_v16 (idx_main_v17 (ix2 p k)) = ix1 p :=
  funext fun a => by match a with | ⟨0, _⟩ => rfl
theorem idx_deg1 (p : Fin 50000) (k : Fin 128) : idx_main_v42 (idx_main_v43 (ix2 p k)) = ix1 p :=
  funext fun a => by match a with | ⟨0, _⟩ => rfl
theorem idx_bias (p : Fin 50000) (q : Fin 128) : idx_main_v22 (idx_main_v23 (ix2 p q)) = ix1 q :=
  funext fun a => by match a with | ⟨0, _⟩ => rfl
theorem idx_bias1 (p : Fin 50000) (q : Fin 128) : idx_main_v48 (idx_main_v49 (ix2 p q)) = ix1 q :=
  funext fun a => by match a with | ⟨0, _⟩ => rfl

/-! ## The two layers -/

/-- The reference's hidden features are the kernel program's. -/
theorem hidden_eq (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5 = Term.hidden x0 x1 x2 x3 x4 x5 := by
  funext i
  obtain ⟨p, q, rfl⟩ : ∃ (p : Fin 50000) (q : Fin 128), i = ix2 p q := ⟨i 0, i 1, eq_ix2 i⟩
  rw [val_main_v25_apply, val_main_v24_apply, val_main_v21_apply, val_main_v19_apply, val_main_v20_apply,
    val_main_v23_apply, val_main_v22_apply, val_main_call0_v0_apply, val_main_call0_cst_apply]
  simp only [val_main_v18_apply, val_main_v17_apply, val_main_v16_apply, val_main_v15_apply, val_main_v14_apply,
    val_main_cst_3_apply, lidx19, ridx19, lidx20, ridx20, idx_deg, idx_bias, agg_eq, deg_eq]
  show max (((∑ k : Fin 128, x0 (ix2 p k) * x3 (ix2 k q))
      + ∑ k : Fin 128, Ideal.div (Term.agg (F := Ideal) x0 x1 x2 (ix2 p k))
          (max (Term.deg (F := Ideal) x2 (ix1 p)) (Ideal.ofBits .f32 0x3F800000#32)) * x4 (ix2 k q)) + x5 (ix1 q))
      (Ideal.ofBits .f32 0x00000000#32)
    = max (Cert.Sage.combine x0 (Term.agg (F := Ideal) x0 x1 x2) (Term.rdeg (F := Ideal) x2) x3 x4 (Term.biasRow (F := Ideal) x5) p q)
      (Ideal.ofBits .f32 0x00000000#32)
  unfold Cert.Sage.combine
  rw [rdeg_apply, biasRow_apply]
  have e : ∀ k : Fin 128, Ideal.div (Term.agg (F := Ideal) x0 x1 x2 (ix2 p k))
        (max (Term.deg (F := Ideal) x2 (ix1 p)) (Ideal.ofBits .f32 0x3F800000#32))
      = Term.agg (F := Ideal) x0 x1 x2 (ix2 p k)
        * Ideal.div (Ideal.ofBits .f32 0x3F800000#32) (max (Term.deg (F := Ideal) x2 (ix1 p)) (Ideal.ofBits .f32 0x3F800000#32)) :=
    fun k => mean_eq _ _
  simp only [e]

/-- The reference's result is the kernel program's. -/
theorem output_eq (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v50 (F := Ideal) x0 x1 x2 x3 x4 x5 x6 x7 x8 = Term.output x0 x1 x2 x3 x4 x5 x6 x7 x8 := by
  funext i
  obtain ⟨p, q, rfl⟩ : ∃ (p : Fin 50000) (q : Fin 128), i = ix2 p q := ⟨i 0, i 1, eq_ix2 i⟩
  rw [val_main_v50_apply, val_main_v47_apply, val_main_v45_apply, val_main_v46_apply, val_main_v49_apply, val_main_v48_apply]
  simp only [val_main_v44_apply, val_main_v43_apply, val_main_v42_apply, val_main_v41_apply, val_main_v40_apply,
    val_main_cst_9_apply, lidx45, ridx45, lidx46, ridx46, idx_deg1, idx_bias1, agg1_eq, deg1_eq, hidden_eq]
  show ((∑ k : Fin 128, Term.hidden x0 x1 x2 x3 x4 x5 (ix2 p k) * x6 (ix2 k q))
      + ∑ k : Fin 128, Ideal.div (Term.agg (F := Ideal) (Term.hidden x0 x1 x2 x3 x4 x5) x1 x2 (ix2 p k))
          (max (Term.deg (F := Ideal) x2 (ix1 p)) (Ideal.ofBits .f32 0x3F800000#32)) * x7 (ix2 k q)) + x8 (ix1 q)
    = Cert.Sage.combine (Term.hidden x0 x1 x2 x3 x4 x5) (Term.agg (F := Ideal) (Term.hidden x0 x1 x2 x3 x4 x5) x1 x2)
        (Term.rdeg (F := Ideal) x2) x6 x7 (Term.biasRow (F := Ideal) x8) p q
  unfold Cert.Sage.combine
  rw [rdeg_apply, biasRow_apply]
  have e : ∀ k : Fin 128, Ideal.div (Term.agg (F := Ideal) (Term.hidden x0 x1 x2 x3 x4 x5) x1 x2 (ix2 p k))
        (max (Term.deg (F := Ideal) x2 (ix1 p)) (Ideal.ofBits .f32 0x3F800000#32))
      = Term.agg (F := Ideal) (Term.hidden x0 x1 x2 x3 x4 x5) x1 x2 (ix2 p k)
        * Ideal.div (Ideal.ofBits .f32 0x3F800000#32) (max (Term.deg (F := Ideal) x2 (ix1 p)) (Ideal.ofBits .f32 0x3F800000#32)) :=
    fun k => mean_eq _ _
  simp only [e]

end Cert.Bridge

end
-- ==== Proof.lean ====
/-
  A two-layer GraphSAGE network with mean aggregation: the kernel program against its jnp reference, on the
  extended reals.

  Each layer computes, for node `p` and output feature `c`,

      ∑ₖ h(p,k)·W_self(k,c) + ∑ₖ mean(p,k)·W_neigh(k,c) + b(c),

  where `mean(p,k)` is the sum of the features `k` of `p`'s in-neighbours divided by `max(deg p, 1)`; the first
  layer is followed by a clamp at zero. Both programs form the neighbour sums and the in-degree with the same host
  gather and scatter-add, which the proof never opens. They differ in one place: the reference divides the neighbour
  sums by the clamped degree, the kernel program computes the reciprocal of the clamped degree once and multiplies
  inside its two combine kernels. As `max(deg p, 1)` is never zero, the quotient IS the product with the reciprocal
  on every extended real, so the two results agree entry by entry and the precondition is not used.

  The frames of the two kernel programs are the generated ones; the reference's frame is its generated run with the
  result dropped; the idealization rewrote nothing, so `preserves` is trivial. For the value claim the kernel
  program's run is read off the generated frame (`Cert.KernelIdeal.Whole.run`: the two regions' blocks tile their
  arrays, each block the layer's combine of the rows it covers) and the reference's off its generated run
  (`Cert.Bridge.output_eq`).
-/
import proofs.«143566_j13615046328531_2_alg».proof.Defs
import proofs.«143566_j13615046328531_2_alg».proof.Proof.Gen.Kernel
import proofs.«143566_j13615046328531_2_alg».proof.Proof.Gen.Kernel.Skeleton
import proofs.«143566_j13615046328531_2_alg».proof.Proof.Gen.Kernel.Launch
import proofs.«143566_j13615046328531_2_alg».proof.Proof.Gen.Kernel.Points
import proofs.«143566_j13615046328531_2_alg».proof.Proof.Gen.Kernel.Frame
import proofs.«143566_j13615046328531_2_alg».proof.Proof.Gen.KernelIdeal
import proofs.«143566_j13615046328531_2_alg».proof.Proof.Gen.KernelIdeal.Skeleton
import proofs.«143566_j13615046328531_2_alg».proof.Proof.Gen.KernelIdeal.Launch
import proofs.«143566_j13615046328531_2_alg».proof.Proof.Gen.KernelIdeal.Points
import proofs.«143566_j13615046328531_2_alg».proof.Proof.Gen.KernelIdeal.Frame
import proofs.«143566_j13615046328531_2_alg».proof.Proof.Gen.ReferenceIdeal
import proofs.«143566_j13615046328531_2_alg».proof.Proof.Gen.Pre_finite_inputs
import proofs.«143566_j13615046328531_2_alg».proof.Proof.Gen.ReferenceIdeal.Run
import proofs.«143566_j13615046328531_2_alg».proof.Proof.Gen.ReferenceIdeal.Read
import proofs.«143566_j13615046328531_2_alg».proof.Proof.KernelValue
import proofs.«143566_j13615046328531_2_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `Term.output` of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.Bridge.output_eq]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
